-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S128x512 : Shape := ⟨2, ![128, 512]⟩
abbrev S512x128 : Shape := ⟨2, ![512, 128]⟩
abbrev S512 : Shape := ⟨1, ![512]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel
  bcast_S_S128x512 : S_.BroadcastsInDim S128x512 (![] : Fin 0 → Fin S128x512.rank)
  reducesTo_S128x512_S_d0_1 : S128x512.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_arg6 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x512x128x128 .f32) (main_arg1 : FVec F S128x512 .f32) (main_arg2 : FVec F S512x128 .f32) (main_arg3 : FVec F S512 .f32) (main_arg4 : FVec F S512 .f32) (main_arg5 : FVec F S512 .f32) (main_arg6 : FVec F S512 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S128x512 .f32 := Host.absf main_arg1
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_v13 main_v16
-- ==== Kernel.lean ====
abbrev S8x512x128x128 : Shape := ⟨4, ![8, 512, 128, 128]⟩
abbrev S128x512 : Shape := ⟨2, ![128, 512]⟩
abbrev S512x128 : Shape := ⟨2, ![512, 128]⟩
abbrev S512 : Shape := ⟨1, ![512]⟩
abbrev S4096x16384 : Shape := ⟨2, ![4096, 16384]⟩
abbrev S4096x1 : Shape := ⟨2, ![4096, 1]⟩
abbrev S256x16384 : Shape := ⟨2, ![256, 16384]⟩
abbrev S256x1 : Shape := ⟨2, ![256, 1]⟩
abbrev S256 : Shape := ⟨1, ![256]⟩
abbrev S8x512 : Shape := ⟨2, ![8, 512]⟩
abbrev S8x128 : Shape := ⟨2, ![8, 128]⟩
abbrev S_ : Shape := ⟨0, ![]⟩
abbrev S1x512 : Shape := ⟨2, ![1, 512]⟩
abbrev S128x16384 : Shape := ⟨2, ![128, 16384]⟩
abbrev S128x1 : Shape := ⟨2, ![128, 1]⟩

abbrev nBuf : Space → Nat
  | .hbm => 47
  | .vmem => 10
  | .smem => 0
  | _ => 0

abbrev bufTy : (tb : Table) → Fin (tcTables nBuf tb) → BufTy
  | .hbm, ⟨0, _⟩ => ⟨S8x512x128x128, .f32⟩
  | .hbm, ⟨1, _⟩ => ⟨S128x512, .f32⟩
  | .hbm, ⟨2, _⟩ => ⟨S512x128, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S4096x16384, .f32⟩
  | .hbm, ⟨8, _⟩ => ⟨S4096x1, .f32⟩
  | .hbm, ⟨9, _⟩ => ⟨S8x512, .f32⟩
  | .hbm, ⟨10, _⟩ => ⟨S8x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S_, .f32⟩
  | .hbm, ⟨17, _⟩ => ⟨S8x128, .f32⟩
  | .hbm, ⟨18, _⟩ => ⟨S8x128, .f32⟩
  | .hbm, ⟨19, _⟩ => ⟨S8x512, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S1x512, .f32⟩
  | .hbm, ⟨25, _⟩ => ⟨S8x512, .f32⟩
  | .hbm, ⟨26, _⟩ => ⟨S8x512, .f32⟩
  | .hbm, ⟨27, _⟩ => ⟨S1x512, .f32⟩
  | .hbm, ⟨28, _⟩ => ⟨S8x512, .f32⟩
  | .hbm, ⟨29, _⟩ => ⟨S8x512, .f32⟩
  | .hbm, ⟨30, _⟩ => ⟨S1x512, .f32⟩
  | .hbm, ⟨31, _⟩ => ⟨S8x512, .f32⟩
  | .hbm, ⟨32, _⟩ => ⟨S8x512, .f32⟩
  | .hbm, ⟨33, _⟩ => ⟨S1x512, .f32⟩
  | .hbm, ⟨34, _⟩ => ⟨S8x512, .f32⟩
  | .hbm, ⟨35, _⟩ => ⟨S8x512, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8x512, .f32⟩
  | .hbm, ⟨40, _⟩ => ⟨S8x512, .f32⟩
  | .hbm, ⟨41, _⟩ => ⟨S_, .f32⟩
  | .hbm, ⟨42, _⟩ => ⟨S8x512, .f32⟩
  | .hbm, ⟨43, _⟩ => ⟨S8x512, .f32⟩
  | .hbm, ⟨44, _⟩ => ⟨S4096x1, .f32⟩
  | .hbm, ⟨45, _⟩ => ⟨S4096x16384, .f32⟩
  | .hbm, ⟨46, _⟩ => ⟨S8x512x128x128, .f32⟩
  | .local _ .vmem, ⟨0, _⟩ => ⟨S256x16384, .f32⟩
  | .local _ .vmem, ⟨1, _⟩ => ⟨S256x16384, .f32⟩
  | .local _ .vmem, ⟨2, _⟩ => ⟨S256x1, .f32⟩
  | .local _ .vmem, ⟨3, _⟩ => ⟨S256x1, .f32⟩
  | .local _ .vmem, ⟨4, _⟩ => ⟨S128x16384, .f32⟩
  | .local _ .vmem, ⟨5, _⟩ => ⟨S128x16384, .f32⟩
  | .local _ .vmem, ⟨6, _⟩ => ⟨S128x1, .f32⟩
  | .local _ .vmem, ⟨7, _⟩ => ⟨S128x1, .f32⟩
  | .local _ .vmem, ⟨8, _⟩ => ⟨S128x16384, .f32⟩
  | .local _ .vmem, ⟨9, _⟩ => ⟨S128x16384, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_cst_3 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x16384 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x16384 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8x512x128x128_S4096x16384 : S8x512x128x128.ShapeCasts S4096x16384
  inb_S256x16384_S256x16384_0_0 : ∀ a, (![0, 0] : Fin 2 → Nat) a + S256x16384.size a ≤ S256x16384.size a
  h_S256x16384 : 0 < S256x16384.numel
  shapeCasts_S256x16384_S256x16384 : S256x16384.ShapeCasts S256x16384
  reduces_S256x16384_S256 : S256x16384.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S4096x1_S8x512 : S4096x1.ShapeCasts S8x512
  bcast_S_S8x128 : S_.BroadcastsInDim S8x128 (![] : Fin 0 → Fin S8x128.rank)
  bcast_S_S512 : S_.BroadcastsInDim S512 (![] : Fin 0 → Fin S512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S_S8x512 : S_.BroadcastsInDim S8x512 (![] : Fin 0 → Fin S8x512.rank)
  shapeCasts_S8x512_S4096x1 : S8x512.ShapeCasts S4096x1
  inb_S128x16384_S128x16384_0_0 : ∀ a, (![0, 0] : Fin 2 → Nat) a + S128x16384.size a ≤ S128x16384.size a
  h_S128x16384 : 0 < S128x16384.numel
  shapeCasts_S128x16384_S128x16384 : S128x16384.ShapeCasts S128x16384
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x16384 : S128x1.Broadcasts S128x16384
  shapeCasts_S4096x16384_S8x512x128x128 : S4096x16384.ShapeCasts S8x512x128x128
  dot_S8x512_S128x512_S8x128_1_1_0_0_n_n_wf : DotDims.WF S8x512 S128x512 S8x128 [1] [1] [0] [0] [] []
  dot_S8x128_S512x128_S8x512_1_1_0_0_n_n_wf : DotDims.WF S8x128 S512x128 S8x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x16384.size a ≤ S4096x16384.size a
  hwx0_0 : ∀ i : grid0.Coords, EltTy.bits .f32 = 32 ∨ (Rect.block (s := S4096x16384) S256x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x16384.size a ≤ S4096x16384.size a
  hwx1_0 : ∀ i : grid1.Coords, EltTy.bits .f32 = 32 ∨ (Rect.block (s := S4096x16384) S128x16384.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S4096x1.size a
  hwx1_1 : ∀ i : grid1.Coords, EltTy.bits .f32 = 32 ∨ (Rect.block (s := S4096x1) S128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x16384.size a ≤ S4096x16384.size a
  hwx1_2 : ∀ i : grid1.Coords, EltTy.bits .f32 = 32 ∨ (Rect.block (s := S4096x16384) S128x16384.size (cc1_transform_2 i) (hinb1_2 i)).WholeWords (EltTy.packing .f32)

variable [Facts₀]

def dot_S8x512_S128x512_S8x128_1_1_0_0_n_n : DotDims S8x512 S128x512 S8x128 where
  lhsContracting := [1]
  rhsContracting := [1]
  lhsNonContracting := [0]
  rhsNonContracting := [0]
  lhsBatch := []
  rhsBatch := []
  wf := dot_S8x512_S128x512_S8x128_1_1_0_0_n_n_wf
def dot_S8x128_S512x128_S8x512_1_1_0_0_n_n : DotDims S8x128 S512x128 S8x512 where
  lhsContracting := [1]
  rhsContracting := [1]
  lhsNonContracting := [0]
  rhsNonContracting := [0]
  lhsBatch := []
  rhsBatch := []
  wf := dot_S8x128_S512x128_S8x512_1_1_0_0_n_n_wf

abbrev win0_0 : Pipeline.Window sig grid0 :=
  Pipeline.Window.ofSpec (Memref.whole main_v0) S256x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S128x16384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S128x16384.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x512x128x128 : Shape := ⟨4, ![8, 512, 128, 128]⟩
abbrev S128x512 : Shape := ⟨2, ![128, 512]⟩
abbrev S512x128 : Shape := ⟨2, ![512, 128]⟩
abbrev S512 : Shape := ⟨1, ![512]⟩
abbrev S_ : Shape := ⟨0, ![]⟩
abbrev S8x512 : Shape := ⟨2, ![8, 512]⟩
abbrev S8x128 : Shape := ⟨2, ![8, 128]⟩
abbrev S1x512 : Shape := ⟨2, ![1, 512]⟩
abbrev S8x512x1x1 : Shape := ⟨4, ![8, 512, 1, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S128x512, .f32⟩
  | .hbm, ⟨2, _⟩ => ⟨S512x128, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S_, .f32⟩
  | .hbm, ⟨8, _⟩ => ⟨S8x512, .f32⟩
  | .hbm, ⟨9, _⟩ => ⟨S_, .f32⟩
  | .hbm, ⟨10, _⟩ => ⟨S8x512, .f32⟩
  | .hbm, ⟨11, _⟩ => ⟨S8x512, .f32⟩
  | .hbm, ⟨12, _⟩ => ⟨S8x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S_, .f32⟩
  | .hbm, ⟨19, _⟩ => ⟨S8x128, .f32⟩
  | .hbm, ⟨20, _⟩ => ⟨S8x128, .f32⟩
  | .hbm, ⟨21, _⟩ => ⟨S8x512, .f32⟩
  | .hbm, ⟨22, _⟩ => ⟨S_, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S1x512, .f32⟩
  | .hbm, ⟨27, _⟩ => ⟨S8x512, .f32⟩
  | .hbm, ⟨28, _⟩ => ⟨S8x512, .f32⟩
  | .hbm, ⟨29, _⟩ => ⟨S1x512, .f32⟩
  | .hbm, ⟨30, _⟩ => ⟨S8x512, .f32⟩
  | .hbm, ⟨31, _⟩ => ⟨S8x512, .f32⟩
  | .hbm, ⟨32, _⟩ => ⟨S1x512, .f32⟩
  | .hbm, ⟨33, _⟩ => ⟨S8x512, .f32⟩
  | .hbm, ⟨34, _⟩ => ⟨S8x512, .f32⟩
  | .hbm, ⟨35, _⟩ => ⟨S1x512, .f32⟩
  | .hbm, ⟨36, _⟩ => ⟨S8x512, .f32⟩
  | .hbm, ⟨37, _⟩ => ⟨S8x512, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8x512, .f32⟩
  | .hbm, ⟨42, _⟩ => ⟨S8x512, .f32⟩
  | .hbm, ⟨43, _⟩ => ⟨S_, .f32⟩
  | .hbm, ⟨44, _⟩ => ⟨S8x512, .f32⟩
  | .hbm, ⟨45, _⟩ => ⟨S8x512, .f32⟩
  | .hbm, ⟨46, _⟩ => ⟨S8x512x1x1, .f32⟩
  | .hbm, ⟨47, _⟩ => ⟨S8x512x128x128, .f32⟩
  | .hbm, ⟨48, _⟩ => ⟨S8x512x128x128, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩

abbrev nD : Nat := 1
abbrev τ : Topo := Topo.v7x

variable {F : FTy → Type} [FloatOps F]

class Facts₀ : Prop where
  reducesTo_S8x512x128x128_S8x512_d2_3 : S8x512x128x128.ReducesTo [2, 3] S8x512
  h_S_ : 0 < S_.numel
  bcast_S_S8x512 : S_.BroadcastsInDim S8x512 (![] : Fin 0 → Fin S8x512.rank)
  bcast_S_S8x128 : S_.BroadcastsInDim S8x128 (![] : Fin 0 → Fin S8x128.rank)
  bcast_S_S512 : S_.BroadcastsInDim S512 (![] : Fin 0 → Fin S512.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S8x512_S8x512x1x1_0_1 : S8x512.BroadcastsInDim S8x512x1x1 (![0, 1] : Fin 2 → Fin S8x512x1x1.rank)
  bcast_S8x512x1x1_S8x512x128x128_0_1_2_3 : S8x512x1x1.BroadcastsInDim S8x512x128x128 (![0, 1, 2, 3] : Fin 4 → Fin S8x512x128x128.rank)
  dot_S8x512_S128x512_S8x128_1_1_0_0_n_n_wf : DotDims.WF S8x512 S128x512 S8x128 [1] [1] [0] [0] [] []
  dot_S8x128_S512x128_S8x512_1_1_0_0_n_n_wf : DotDims.WF S8x128 S512x128 S8x512 [1] [1] [0] [0] [] []

variable [Facts₀]

def dot_S8x512_S128x512_S8x128_1_1_0_0_n_n : DotDims S8x512 S128x512 S8x128 where
  lhsContracting := [1]
  rhsContracting := [1]
  lhsNonContracting := [0]
  rhsNonContracting := [0]
  lhsBatch := []
  rhsBatch := []
  wf := dot_S8x512_S128x512_S8x128_1_1_0_0_n_n_wf
def dot_S8x128_S512x128_S8x512_1_1_0_0_n_n : DotDims S8x128 S512x128 S8x512 where
  lhsContracting := [1]
  rhsContracting := [1]
  lhsNonContracting := [0]
  rhsNonContracting := [0]
  lhsBatch := []
  rhsBatch := []
  wf := dot_S8x128_S512x128_S8x512_1_1_0_0_n_n_wf

class Facts : Prop extends Facts₀ where

variable [Facts]
-- ==== Proof.KernelRun.lean ====
/-
  The idealized kernel's run with its result array named.

  The program is two pipelined regions among stretches of host operations. Its buffers' contents at the
  boundaries of those segments form a fold from the launch memory: a host stretch applies its operations, a
  region replaces each of its arrays by what its write-backs leave and keeps every other buffer. Run segment
  by segment from the launch memory, every weakly fair execution terminates without a fault with every
  unscoped buffer at the last boundary's contents of that fold. Read at the result buffer and at the seven
  argument buffers: the result array after the run is the last boundary's contents at that buffer, and the
  argument arrays, which no host operation and no region writes, end as launched.
-/
import proofs.«126823_j68032281969033_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents of the fold, and each argument array as launched. -/
theorem run : θ_run defs (onTc (τ := τ) (main (F := F))) ⟨m, fun _ => 0, ρ⟩ (fun r => ∀ c : Dev nD,
      r.2.mem ((c.tc : Thread nD τ).loc main_v24) = W9 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v24 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.ResultRun

end
-- ==== Proof.LibColumns.lean ====
/-
  Layout operations around a `keepdims` column, read at an index given by coordinates, at any extents:
  a vector `[a]` recast as the column `[a, 1]`; a column `[a, 1]` broadcast along its rows to `[a, b]`; a matrix
  `[a, b]` recast with a trailing unit axis, `[a, b, 1]`; two such arrays joined along that axis into `[a, b, 2]`
  (a stack of two columns); and, over the extended reals, the lane sum of a matrix along its second axis read as the
  sum of one row. Each is the general read-at-an-index lemma of the value library with the index arithmetic done.
-/
import Idealize.ShloMosaic.Lib.Pipeline.Value
import Idealize.ShloMosaic.Lib.ValueIdx
import Idealize.ShloMosaic.PureOps.Ideal.Laws

open scoped BigOperators

namespace Cert.Lib.Columns

open Idealize.ShloMosaic Idealize.ShloMosaic.ValueIdx

variable {α : Type}

/-- An `[a]` array cast to the column `[a, 1]` reads, at `(i, u)`, the operand at `i`, whatever the unit coordinate `u`:
    both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(p, c, u)`, the operand at `(p, c)`: both have row-major position
    `p · b + c`. -/
theorem shapeCast_ab_ab1_apply {a b : ℕ} (x : (⟨2, ![a, b]⟩ : Shape).Idx → α) (h : (⟨2, ![a, b]⟩ : Shape).ShapeCasts ⟨3, ![a, b, 1]⟩)
    (p : Fin a) (c : Fin b) (u : Fin 1) : shapeCast ⟨3, ![a, b, 1]⟩ x h (ix3 p c u) = x (ix2 p c) :=
  shapeCast_apply x h _ _ (by
    have hu : u.val = 0 := by omega
    rw [Shape.rowMajor_val_two, Shape.rowMajor_val_three]
    show p.val * b + c.val = (p.val * b + c.val) * 1 + u.val
    rw [hu, Nat.mul_one, Nat.add_zero])

/-- Two `[a, b, 1]` arrays joined along the last axis into `[a, b, 2]`: at `(p, c, l)` the first array's entry at `(p, c)`
    when `l` is `0`, the second's when `l` is `1` — the last coordinate selects the array, the others pass through. -/
theorem concatenate_ab1_ab1_apply {a b : ℕ} (x₁ x₂ : (⟨3, ![a, b, 1]⟩ : Shape).Idx → α)
    (h : Shape.Concatenates [(⟨3, ![a, b, 1]⟩ : Shape), ⟨3, ![a, b, 1]⟩] ⟨3, ![a, b, 2]⟩ (2 : Fin 3)) (p : Fin a) (c : Fin b) (l : Fin 2) :
    concatenate ⟨3, ![a, b, 2]⟩ (2 : Fin 3) [⟨⟨3, ![a, b, 1]⟩, x₁⟩, ⟨⟨3, ![a, b, 1]⟩, x₂⟩] h (ix3 p c l)
      = if l.val = 0 then x₁ (ix3 p c (0 : Fin 1)) else x₂ (ix3 p c (0 : Fin 1)) := by
  match l with
  | ⟨0, h0⟩ =>
    refine (concatenate_pair_apply_left (t := ⟨3, ![a, b, 2]⟩) (2 : Fin 3) x₁ x₂ h (ix3 p c (⟨0, h0⟩ : Fin 2)) rfl
      (ix3 p c (0 : Fin 1)) (fun bx => by
        match bx with | ⟨0, _⟩ => rfl | ⟨1, _⟩ => rfl | ⟨2, _⟩ => rfl)).trans ?_
    exact (if_pos rfl).symm
  | ⟨1, h1⟩ =>
    refine (concatenate_pair_apply_right (t := ⟨3, ![a, b, 2]⟩) (2 : Fin 3) x₁ x₂ h (ix3 p c (⟨1, h1⟩ : Fin 2)) rfl rfl
      (ix3 p c (0 : Fin 1)) (fun bx hb => by
        match bx with | ⟨0, _⟩ => rfl | ⟨1, _⟩ => rfl | ⟨2, _⟩ => exact absurd rfl hb) rfl).trans ?_
    exact (if_neg Nat.one_ne_zero).symm

/-- Over the extended reals, the lane sum of an `[a, b]` array along its second axis is, at row `r`, the sum of that
    row's `b` entries: the index the reduction inserts coordinate `k` into is `(r, k)`. -/
theorem multiReduction_add_ab_a_apply {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ)
    (r : Fin a) :
    multiReduction .add [(1 : Fin 2)] ⟨1, ![a]⟩ src acc h hφ hacc (ix1 r) = ∑ k : Fin b, src (ix2 r k) := by
  rw [Ideal.multiReduction_add_single]
  exact Finset.sum_congr rfl fun k _ => congrArg src (funext fun c => Fin.ext (by
    match c with | ⟨0, _⟩ => rfl | ⟨1, _⟩ => rfl))

end Cert.Lib.Columns
-- ==== Proof.PoolRegion.lean ====
/-
  Region 0 (the pool) at any entry contents.

  The region's grid has 16 points; point t reads rows 256·t … 256·t + 255 of the [4096, 16384] operand and
  writes the same rows of the [4096, 1] result. What it writes in row p of its block is the sum of the 16384
  entries of that row of the operand block, times the scale the kernel multiplies by. The blocks of the
  result tile it (row r lies in the block of point r / 256), so after the region the result array is, row by
  row, the scaled sum of the operand's row: `rowMeans` of the operand as the region found it.
-/
import proofs.«126823_j68032281969033_2_alg».proof.Proof.Gen.KernelIdeal.Frame
import proofs.«126823_j68032281969033_2_alg».proof.Proof.LibColumns
import Idealize.ShloMosaic.Lib.Pipeline.Value
import Idealize.ShloMosaic.Lib.ValueIdx
import Idealize.ShloMosaic.PureOps.Ideal.Laws

set_option maxRecDepth 16384

open scoped BigOperators

noncomputable section

namespace Cert.KernelIdeal.Pool

open Cert.KernelIdeal Cert.KernelIdeal.Gen
open Idealize.ShloMosaic Idealize.ShloMosaic.TcCoe Idealize.SL.Sem Idealize.ShloMosaic.ValueIdx
open Idealize.ShloMosaic.Pipeline (Dat)

/-- The factor the pool multiplies each row's sum by. -/
abbrev scale : EReal := FloatOps.ofBits (F := Ideal) .f32 0x38800000#32

/-- Row r of the result: the sum of row r of the operand, scaled. -/
def rowMeans (X : S4096x16384.Idx → EReal) : S4096x1.Idx → EReal :=
  fun i => (∑ k : Fin 16384, X (ix2 (⟨(i 0).val, idx2_lt0 i⟩ : Fin 4096) k)) * scale

theorem hz : (![0, 0] : Fin 2 → Nat) = fun _ => 0 := funext fun a => by fin_cases a <;> rfl

/-- What the body stores at (p, q) of its block: the sum of row p of the loaded block, scaled. -/
theorem stored_apply (x0 : Vec Ideal S256x16384 .f32) (p : Fin 256) (q : Fin 1) :
    k0_pay1 x0 (ix2 p q) = (∑ k : Fin 16384, x0 (ix2 p k)) * scale := by
  unfold k0_pay1
  dsimp only
  refine (mulf_apply _ _ (ix2 p q)).trans ?_
  refine congrArg₂ (· * ·) ?_ (broadcast_apply _ _)
  refine (Cert.Lib.Columns.shapeCast_a_a1_apply _ shapeCasts_S256_S256x1 p q).trans ?_
  refine (Cert.Lib.Columns.multiReduction_add_ab_a_apply (φ := .f32) _ 0x00000000#32 reduces_S256x16384_S256 (.inl rfl) rfl p).trans ?_
  rw [shapeCast_self]

/-- The same at any index of the block. -/
theorem stored_row (x0 : Vec Ideal S256x16384 .f32) (y : S256x1.Idx) :
    k0_pay1 x0 y = (∑ k : Fin 16384, x0 (ix2 (⟨(y 0).val, idx2_lt0 y⟩ : Fin 256) k)) * scale := by
  obtain ⟨p, q, rfl⟩ : ∃ (p : Fin 256) (q : Fin 1), y = ix2 p q := ⟨y 0, y 1, eq_ix2 y⟩
  exact stored_apply x0 p q

/-- The printed index maps over the grid: point t's blocks start at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

variable (V : (c : Dev nD) → (b : Ref sig .tc) → Buf (Elt Ideal) ((c : Thread nD τ).loc b))

/-- The operand's block at point t is rows 256·t … of the operand. -/
theorem operand_block (c : Dev nD) (t : Fin cfg0.N) (y : S256x16384.Idx) (i : S4096x16384.Idx)
    (h0 : (i 0).val = t.val * 256 + (y 0).val) (h1 : (i 1).val = (y 1).val) :
    (iblk0 V c 0 t : Vec Ideal S256x16384 .f32) y = (V c main_v0 : S4096x16384.Idx → EReal) i := by
  obtain ⟨e0, e1, -, -⟩ := idx_facts t
  unfold iblk0
  rw [View.read_apply]
  show (V c main_v0 : S4096x16384.Idx → EReal) _ = V c main_v0 i
  refine congrArg (V c main_v0 : S4096x16384.Idx → EReal) (funext fun a => Fin.ext ?_)
  match a with
  | ⟨0, _⟩ => show win0_0.index t (0 : Fin 2) * 256 + 1 * (y 0).val = (i 0).val; rw [e0, h0]; omega
  | ⟨1, _⟩ => show win0_0.index t (1 : Fin 2) * 16384 + 1 * (y 1).val = (i 1).val; rw [e1, h1]; omega

/-- What point t writes back is its block of `rowMeans` of the operand. -/
theorem flushed_eq (c : Dev nD) (t : Fin cfg0.N) :
    (dat0 V c).flushed 1 t = ((cfg0.win 1).blk t).view.read (Elt Ideal) (rowMeans (V c main_v0)) := by
  show (cfg0.win 1).cut (grid0.coords t) ((dat0 V c).after 1 t) = _
  rw [after0_1]
  unfold out0_1
  rw [View.canon_unit_zero hz]
  simp only [View.ld_unit_zero (S := S256x16384) hz]
  obtain ⟨-, -, e2, e3⟩ := idx_facts t
  funext j
  show k0_pay1 (iblk0 V c 0 t) j = rowMeans (V c main_v0) (((cfg0.win 1).blk t).view.emb j)
  refine (stored_row (iblk0 V c 0 t) j).trans ?_
  unfold rowMeans
  refine congrArg₂ (· * ·) (Finset.sum_congr rfl fun k _ => ?_) rfl
  refine operand_block V c t _ _ ?_ rfl
  show win0_1.index t (0 : Fin 2) * 256 + 1 * (j 0).val = t.val * 256 + (j 0).val
  rw [e2]; omega

/-- An index of the result is in point t's block iff each coordinate is in the block's range. -/
theorem mem_blk (t : Fin cfg0.N) (i : S4096x1.Idx) :
    i ∈ ((cfg0.win 1).blk t).view.set ↔ ∀ a : Fin 2, win0_1.index t a * S256x1.size a ≤ (i a).val ∧ (i a).val < win0_1.index t a * S256x1.size a + S256x1.size a := by
  show i ∈ ((View.whole main_v1).slice (win0_1.rect t)).set ↔ _
  rw [View.set_slice_whole, Rect.mem_set_unit]
  exact Iff.rfl

/-- Row r is in the block of point r / 256. -/
theorem cover (i : S4096x1.Idx) : ∃ t : Fin cfg0.N, (cfg0.win 1).flush t = true ∧ i ∈ ((cfg0.win 1).blk t).view.set := by
  have hi0 : (i 0).val < 4096 := (i 0).isLt
  have hi1 : (i 1).val < 1 := (i 1).isLt
  have hN : cfg0.N = 16 := N_0
  have hlt : (i 0).val / 256 < cfg0.N := by rw [hN]; omega
  obtain ⟨-, -, e2, e3⟩ := idx_facts ⟨(i 0).val / 256, hlt⟩
  refine ⟨⟨(i 0).val / 256, hlt⟩, flush0_1 _, ?_⟩
  rw [mem_blk]
  intro a
  match a with
  | ⟨0, _⟩ =>
    show win0_1.index ⟨(i 0).val / 256, hlt⟩ (0 : Fin 2) * 256 ≤ (i 0).val ∧ (i 0).val < win0_1.index ⟨(i 0).val / 256, hlt⟩ (0 : Fin 2) * 256 + 256
    rw [e2]; show (i 0).val / 256 * 256 ≤ (i 0).val ∧ (i 0).val < (i 0).val / 256 * 256 + 256; omega
  | ⟨1, _⟩ =>
    show win0_1.index ⟨(i 0).val / 256, hlt⟩ (1 : Fin 2) * 1 ≤ (i 1).val ∧ (i 1).val < win0_1.index ⟨(i 0).val / 256, hlt⟩ (1 : Fin 2) * 1 + 1
    rw [e3]; omega

/-- The result array after the region. -/
theorem array_eq (c : Dev nD) : (dat0 V c).arrAt 1 cfg0.N = rowMeans (V c main_v0) :=
  (dat0 V c).arrAt_eq_of_cover 1 (rowMeans (V c main_v0)) (fun t _ => flushed_eq V c t) cover

end Cert.KernelIdeal.Pool

end
-- ==== Proof.AddRegion.lean ====
/-
  Region 1 (the residual add) at any entry contents.

  The region's grid has 32 points; point t reads rows 128·t … 128·t + 127 of the [4096, 16384] operand and of
  the [4096, 1] column, and writes the same rows of the [4096, 16384] result. At (p, k) of its block it writes
  the operand's entry plus the column's entry of row p. The blocks of the result tile it (row r lies in the
  block of point r / 128), so after the region the result array is, entry by entry, the operand plus the
  column's entry of that row: `rowAdd` of the two arrays as the region found them.
-/
import proofs.«126823_j68032281969033_2_alg».proof.Proof.Gen.KernelIdeal.Frame
import proofs.«126823_j68032281969033_2_alg».proof.Proof.LibColumns
import Idealize.ShloMosaic.Lib.Pipeline.Value
import Idealize.ShloMosaic.Lib.ValueIdx
import Idealize.ShloMosaic.PureOps.Ideal.Laws

set_option maxRecDepth 16384

noncomputable section

namespace Cert.KernelIdeal.Residual

open Cert.KernelIdeal Cert.KernelIdeal.Gen
open Idealize.ShloMosaic Idealize.ShloMosaic.TcCoe Idealize.SL.Sem Idealize.ShloMosaic.ValueIdx
open Idealize.ShloMosaic.Pipeline (Dat)

/-- Entry (r, k) of the result: the operand's entry plus the column's entry of row r. -/
def rowAdd (X : S4096x16384.Idx → EReal) (Y : S4096x1.Idx → EReal) : S4096x16384.Idx → EReal :=
  fun i => X i + Y (ix2 (⟨(i 0).val, idx2_lt0 i⟩ : Fin 4096) (0 : Fin 1))

theorem hz : (![0, 0] : Fin 2 → Nat) = fun _ => 0 := funext fun a => by fin_cases a <;> rfl

/-- What the body stores at (p, k) of its block: the operand block's entry plus the column block's entry of row p. -/
theorem stored_apply (x0 : Vec Ideal S128x16384 .f32) (x1 : Vec Ideal S128x1 .f32) (p : Fin 128) (k : Fin 16384) :
    k1_pay1 x0 x1 (ix2 p k) = x0 (ix2 p k) + x1 (ix2 p (0 : Fin 1)) := by
  unfold k1_pay1
  try dsimp only
  refine (addf_apply _ _ (ix2 p k)).trans ?_
  refine congrArg₂ (· + ·) ?_ ?_
  · rw [shapeCast_self]
  · refine (Cert.Lib.Columns.broadcastTo_a1_ab_apply _ broadcasts_S128x1_S128x16384 p k).trans ?_
    rw [shapeCast_self]

/-- The same at any index of the block. -/
theorem stored_entry (x0 : Vec Ideal S128x16384 .f32) (x1 : Vec Ideal S128x1 .f32) (y : S128x16384.Idx) :
    k1_pay1 x0 x1 y = x0 y + x1 (ix2 (⟨(y 0).val, idx2_lt0 y⟩ : Fin 128) (0 : Fin 1)) := by
  obtain ⟨p, k, rfl⟩ : ∃ (p : Fin 128) (k : Fin 16384), y = ix2 p k := ⟨y 0, y 1, eq_ix2 y⟩
  exact stored_apply x0 x1 p k

/-- The printed index maps over the grid: point t's blocks start at block row t, block column 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- The operand's block at point t is rows 128·t … of the operand. -/
theorem operand_block (c : Dev nD) (t : Fin cfg1.N) (y : S128x16384.Idx) (i : S4096x16384.Idx)
    (h0 : (i 0).val = t.val * 128 + (y 0).val) (h1 : (i 1).val = (y 1).val) :
    (iblk1 V c 0 t : Vec Ideal S128x16384 .f32) y = (V c main_v0 : S4096x16384.Idx → EReal) i := by
  obtain ⟨e0, e1, -, -, -, -⟩ := idx_facts t
  unfold iblk1
  rw [View.read_apply]
  show (V c main_v0 : S4096x16384.Idx → EReal) _ = V c main_v0 i
  refine congrArg (V c main_v0 : S4096x16384.Idx → EReal) (funext fun a => Fin.ext ?_)
  match a with
  | ⟨0, _⟩ => show win1_0.index t (0 : Fin 2) * 128 + 1 * (y 0).val = (i 0).val; rw [e0, h0]; omega
  | ⟨1, _⟩ => show win1_0.index t (1 : Fin 2) * 16384 + 1 * (y 1).val = (i 1).val; rw [e1, h1]; omega

/-- The column's block at point t is rows 128·t … of the column. -/
theorem column_block (c : Dev nD) (t : Fin cfg1.N) (y : S128x1.Idx) (i : S4096x1.Idx)
    (h0 : (i 0).val = t.val * 128 + (y 0).val) (h1 : (i 1).val = (y 1).val) :
    (iblk1 V c 1 t : Vec Ideal S128x1 .f32) y = (V c main_v22 : S4096x1.Idx → EReal) i := by
  obtain ⟨-, -, e2, e3, -, -⟩ := idx_facts t
  unfold iblk1
  rw [View.read_apply]
  show (V c main_v22 : S4096x1.Idx → EReal) _ = V c main_v22 i
  refine congrArg (V c main_v22 : S4096x1.Idx → EReal) (funext fun a => Fin.ext ?_)
  match a with
  | ⟨0, _⟩ => show win1_1.index t (0 : Fin 2) * 128 + 1 * (y 0).val = (i 0).val; rw [e2, h0]; omega
  | ⟨1, _⟩ => show win1_1.index t (1 : Fin 2) * 1 + 1 * (y 1).val = (i 1).val; rw [e3, h1]; omega

/-- What point t writes back is its block of `rowAdd` of the operand and the column. -/
theorem flushed_eq (c : Dev nD) (t : Fin cfg1.N) :
    (dat1 V c).flushed 2 t = ((cfg1.win 2).blk t).view.read (Elt Ideal) (rowAdd (V c main_v0) (V c main_v22)) := by
  show (cfg1.win 2).cut (grid1.coords t) ((dat1 V c).after 2 t) = _
  rw [after1_2]
  unfold out1_2
  rw [View.canon_unit_zero hz]
  simp only [View.ld_unit_zero (S := S128x16384) hz, View.ld_unit_zero (S := S128x1) hz]
  obtain ⟨-, -, -, -, e4, e5⟩ := idx_facts t
  funext j
  show k1_pay1 (iblk1 V c 0 t) (iblk1 V c 1 t) j = rowAdd (V c main_v0) (V c main_v22) (((cfg1.win 2).blk t).view.emb j)
  refine (stored_entry (iblk1 V c 0 t) (iblk1 V c 1 t) j).trans ?_
  unfold rowAdd
  have hr : ((((cfg1.win 2).blk t).view.emb j) 0).val = t.val * 128 + (j 0).val := by
    show win1_2.index t (0 : Fin 2) * 128 + 1 * (j 0).val = t.val * 128 + (j 0).val
    rw [e4]; omega
  have hc : ((((cfg1.win 2).blk t).view.emb j) 1).val = (j 1).val := by
    show win1_2.index t (1 : Fin 2) * 16384 + 1 * (j 1).val = (j 1).val
    rw [e5]; omega
  refine congrArg₂ (· + ·) (operand_block V c t j _ hr hc) (column_block V c t _ _ hr rfl)

/-- An index of the result is in point t's block iff each coordinate is in the block's range. -/
theorem mem_blk (t : Fin cfg1.N) (i : S4096x16384.Idx) :
    i ∈ ((cfg1.win 2).blk t).view.set ↔ ∀ a : Fin 2, win1_2.index t a * S128x16384.size a ≤ (i a).val ∧ (i a).val < win1_2.index t a * S128x16384.size a + S128x16384.size a := by
  show i ∈ ((View.whole main_v23).slice (win1_2.rect t)).set ↔ _
  rw [View.set_slice_whole, Rect.mem_set_unit]
  exact Iff.rfl

/-- Row r is in the block of point r / 128. -/
theorem cover (i : S4096x16384.Idx) : ∃ t : Fin cfg1.N, (cfg1.win 2).flush t = true ∧ i ∈ ((cfg1.win 2).blk t).view.set := by
  have hi0 : (i 0).val < 4096 := (i 0).isLt
  have hi1 : (i 1).val < 16384 := (i 1).isLt
  have hN : cfg1.N = 32 := N_1
  have hlt : (i 0).val / 128 < cfg1.N := by rw [hN]; omega
  obtain ⟨-, -, -, -, e4, e5⟩ := idx_facts ⟨(i 0).val / 128, hlt⟩
  refine ⟨⟨(i 0).val / 128, hlt⟩, flush1_2 _, ?_⟩
  rw [mem_blk]
  intro a
  match a with
  | ⟨0, _⟩ =>
    show win1_2.index ⟨(i 0).val / 128, hlt⟩ (0 : Fin 2) * 128 ≤ (i 0).val ∧ (i 0).val < win1_2.index ⟨(i 0).val / 128, hlt⟩ (0 : Fin 2) * 128 + 128
    rw [e4]; show (i 0).val / 128 * 128 ≤ (i 0).val ∧ (i 0).val < (i 0).val / 128 * 128 + 128; omega
  | ⟨1, _⟩ =>
    show win1_2.index ⟨(i 0).val / 128, hlt⟩ (1 : Fin 2) * 16384 ≤ (i 1).val ∧ (i 1).val < win1_2.index ⟨(i 0).val / 128, hlt⟩ (1 : Fin 2) * 16384 + 16384
    rw [e5]; omega

/-- The result array after the region. -/
theorem array_eq (c : Dev nD) : (dat1 V c).arrAt 2 cfg1.N = rowAdd (V c main_v0) (V c main_v22) :=
  (dat1 V c).arrAt_eq_of_cover 2 (rowAdd (V c main_v0) (V c main_v22)) (fun t _ => flushed_eq V c t) cover

end Cert.KernelIdeal.Residual

end
-- ==== Proof.Fold.lean ====
/-
  The kernel's result array as one function of its argument arrays.

  Walking the segments in order: the first host stretch reshapes x to 4096 rows; region 0 leaves the column of
  scaled row sums (and keeps its operand); the middle host stretches reshape that column to [8, 512], apply the
  two small matrix products, the clips and the normalization (`mid`), and reshape the [8, 512] result back to a
  column, touching neither the reshaped x nor any argument; region 1 leaves the reshaped x with the column added
  row by row; the last host stretch reshapes that to the result's shape.
-/
import proofs.«126823_j68032281969033_2_alg».proof.Proof.Gen.KernelIdeal.Frame
import proofs.«126823_j68032281969033_2_alg».proof.Proof.PoolRegion
import proofs.«126823_j68032281969033_2_alg».proof.Proof.AddRegion
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat)
open Cert.KernelIdeal.Pool (rowMeans)
open Cert.KernelIdeal.Residual (rowAdd)

/-- The [8, 512] algebra between the two regions, of the pooled array and the six small arguments: the guide
    product clipped to [0, 6], the fuse product, the normalization by mean, variance, scale and shift, clipped to [0, 6]. -/
def mid (y0 : FVec Ideal S8x512 .f32) (w1 : FVec Ideal S128x512 .f32) (w2 : FVec Ideal S512x128 .f32)
    (a3 a4 a5 a6 : FVec Ideal S512 .f32) : FVec Ideal S8x512 .f32 :=
  minimumf (broadcastInDim S8x512 ![] bcast_S_S8x512 (id (constant S_ .f32 0x40C00000#32)))
    (maximumf (broadcastInDim S8x512 ![] bcast_S_S8x512 (id (constant S_ .f32 0x00000000#32)))
      (addf (mulf (mulf (subf
        (Host.dotGeneral dot_S8x128_S512x128_S8x512_1_1_0_0_n_n none
          (minimumf (broadcastInDim S8x128 ![] bcast_S_S8x128 (id (constant S_ .f32 0x40C00000#32)))
            (maximumf (broadcastInDim S8x128 ![] bcast_S_S8x128 (id (constant S_ .f32 0x00000000#32)))
              (Host.dotGeneral dot_S8x512_S128x512_S8x128_1_1_0_0_n_n none y0 w1))) w2)
        (broadcastInDim S8x512 ![0, 1] bcast_S1x512_S8x512_0_1 (broadcastInDim S1x512 ![1] bcast_S512_S1x512_1 a5)))
        (broadcastInDim S8x512 ![0, 1] bcast_S1x512_S8x512_0_1 (broadcastInDim S1x512 ![1] bcast_S512_S1x512_1
          (Host.rsqrt (addf a6 (broadcastInDim S512 ![] bcast_S_S512 (constant S_ .f32 0x3727C5AC#32)))))))
        (broadcastInDim S8x512 ![0, 1] bcast_S1x512_S8x512_0_1 (broadcastInDim S1x512 ![1] bcast_S512_S1x512_1 a3)))
        (broadcastInDim S8x512 ![0, 1] bcast_S1x512_S8x512_0_1 (broadcastInDim S1x512 ![1] bcast_S512_S1x512_1 a4))))

variable (m : (ℓ : Loc nD τ sig) → Buf (Elt Ideal) ℓ) (ρ : Dev nD → PrngReg)

/-- x as 4096 rows: what region 0 is entered with at its operand. -/
abbrev rows (c : Dev nD) : S4096x16384.Idx → EReal :=
  shapeCast S4096x16384 (m ((c : Thread nD τ).loc main_arg0)) shapeCasts_S8x512x128x128_S4096x16384

/-- Region 0's operand at its entry. -/
theorem entry_rows (c : Dev nD) : V1 m ρ c main_v0 = rows m c := by
  show StableHlo.after hostOps0 (W0 m ρ c) (Proc.devRef .tc main_v0) = _
  after_results
  rfl

/-- Region 0 writes no block of its operand. -/
theorem operand_never_flushed : ∀ t : Fin cfg0.N, (cfg0.win 0).flush t = false :=
  (by decide +kernel : ∀ t : Fin grid0.N, win0_0.flush t = false)

/-- After region 0 its operand is as entered. -/
theorem rows_after_pool (c : Dev nD) : W2 m ρ c (Proc.devRef .tc main_v0) = rows m c := by
  refine (W2_arr m ρ c 0).trans ?_
  refine (funext fun i => (dat0 (V1 m ρ) c).arrAt_apply_of_forall_not_mem 0 cfg0.N i fun t _ hf => ?_).trans ?_
  · rw [operand_never_flushed t] at hf; exact absurd hf (by decide)
  · rw [A_eq0]; exact entry_rows m ρ c

/-- After region 0 its result is the column of scaled row sums. -/
theorem column_after_pool (c : Dev nD) : W2 m ρ c (Proc.devRef .tc main_v1) = rowMeans (rows m c) := by
  refine (W2_arr m ρ c 1).trans ?_
  rw [Pool.array_eq (V1 m ρ) c, entry_rows]

/-- The small arguments after region 0 are as launched. -/
theorem arg_after_pool (c : Dev nD) (b : Ref sig .tc) (hb : ∀ w, Pipeline.arrRef spec0 w ≠ b)
    (h0 : StableHlo.after hostOps0 (W0 m ρ c) (Proc.devRef .tc b) = m ((c : Thread nD τ).loc b)) :
    W2 m ρ c (Proc.devRef .tc b) = m ((c : Thread nD τ).loc b) :=
  (W2_of_ne m ρ c b hb).trans h0

theorem arg1_after_pool (c : Dev nD) : W2 m ρ c (Proc.devRef .tc main_arg1) = m ((c : Thread nD τ).loc main_arg1) :=
  arg_after_pool m ρ c main_arg1 (by decide) (by after_results)
theorem arg2_after_pool (c : Dev nD) : W2 m ρ c (Proc.devRef .tc main_arg2) = m ((c : Thread nD τ).loc main_arg2) :=
  arg_after_pool m ρ c main_arg2 (by decide) (by after_results)
theorem arg3_after_pool (c : Dev nD) : W2 m ρ c (Proc.devRef .tc main_arg3) = m ((c : Thread nD τ).loc main_arg3) :=
  arg_after_pool m ρ c main_arg3 (by decide) (by after_results)
theorem arg4_after_pool (c : Dev nD) : W2 m ρ c (Proc.devRef .tc main_arg4) = m ((c : Thread nD τ).loc main_arg4) :=
  arg_after_pool m ρ c main_arg4 (by decide) (by after_results)
theorem arg5_after_pool (c : Dev nD) : W2 m ρ c (Proc.devRef .tc main_arg5) = m ((c : Thread nD τ).loc main_arg5) :=
  arg_after_pool m ρ c main_arg5 (by decide) (by after_results)
theorem arg6_after_pool (c : Dev nD) : W2 m ρ c (Proc.devRef .tc main_arg6) = m ((c : Thread nD τ).loc main_arg6) :=
  arg_after_pool m ρ c main_arg6 (by decide) (by after_results)

/-- The middle stretches leave the reshaped x alone. -/
theorem rows_at_add (c : Dev nD) : V7 m ρ c main_v0 = W2 m ρ c (Proc.devRef .tc main_v0) := by
  show StableHlo.after hostOps1_4 (StableHlo.after hostOps1_3 (StableHlo.after hostOps1_2 (StableHlo.after hostOps1_1
    (StableHlo.after hostOps1 (W2 m ρ c))))) (Proc.devRef .tc main_v0) = _
  after_results_simp

/-- The column region 1 is entered with: `mid` of the pooled array, as a column. -/
theorem column_at_add (c : Dev nD) :
    V7 m ρ c main_v22 = shapeCast S4096x1
      (mid (shapeCast S8x512 (W2 m ρ c (Proc.devRef .tc main_v1)) shapeCasts_S4096x1_S8x512)
        (W2 m ρ c (Proc.devRef .tc main_arg1)) (W2 m ρ c (Proc.devRef .tc main_arg2)) (W2 m ρ c (Proc.devRef .tc main_arg3))
        (W2 m ρ c (Proc.devRef .tc main_arg4)) (W2 m ρ c (Proc.devRef .tc main_arg5)) (W2 m ρ c (Proc.devRef .tc main_arg6)))
      shapeCasts_S8x512_S4096x1 := by
  show StableHlo.after hostOps1_4 (StableHlo.after hostOps1_3 (StableHlo.after hostOps1_2 (StableHlo.after hostOps1_1
    (StableHlo.after hostOps1 (W2 m ρ c))))) (Proc.devRef .tc main_v22) = _
  after_results_simp
  rfl

/-- The kernel's value: x as rows, the column of `mid` of the pooled rows added row by row, reshaped back. -/
def value (x : S8x512x128x128.Idx → EReal) (w1 : FVec Ideal S128x512 .f32) (w2 : FVec Ideal S512x128 .f32)
    (a3 a4 a5 a6 : FVec Ideal S512 .f32) : S8x512x128x128.Idx → EReal :=
  shapeCast S8x512x128x128
    (rowAdd (shapeCast S4096x16384 x shapeCasts_S8x512x128x128_S4096x16384)
      (shapeCast S4096x1
        (mid (shapeCast S8x512 (rowMeans (shapeCast S4096x16384 x shapeCasts_S8x512x128x128_S4096x16384)) shapeCasts_S4096x1_S8x512)
          w1 w2 a3 a4 a5 a6) shapeCasts_S8x512_S4096x1))
    shapeCasts_S4096x16384_S8x512x128x128

/-- The result buffer at the last boundary holds `value` of the launch contents of the arguments. -/
theorem result_eq (c : Dev nD) :
    W9 m ρ c (Proc.devRef .tc main_v24)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have hlast : W9 m ρ c (Proc.devRef .tc main_v24)
      = shapeCast S8x512x128x128 (W8 m ρ c (Proc.devRef .tc main_v23)) shapeCasts_S4096x16384_S8x512x128x128 := by
    show StableHlo.after hostOps2 (W8 m ρ c) (Proc.devRef .tc main_v24) = _
    after_results
    rfl
  have hadd : W8 m ρ c (Proc.devRef .tc main_v23) = rowAdd (V7 m ρ c main_v0) (V7 m ρ c main_v22) :=
    (W8_arr m ρ c 2).trans (Residual.array_eq (V7 m ρ) c)
  rw [hlast, hadd, rows_at_add, column_at_add, rows_after_pool, column_after_pool, arg1_after_pool, arg2_after_pool,
    arg3_after_pool, arg4_after_pool, arg5_after_pool, arg6_after_pool]
  rfl

end Cert.KernelIdeal.Fold

end
-- ==== Proof.Consts.lean ====
/-
  The two float constants the pool's two spellings use, as extended reals: the kernel multiplies a row's sum by
  the word 0x38800000, which denotes 2⁻¹⁴ = 1/16384 exactly, and the reference divides by the word 0x46800000,
  which denotes 16384.
-/
import Idealize.ShloMosaic.PureOps.Ideal

noncomputable section

namespace Cert.Consts

open Idealize.ShloMosaic

/-- `16384.0` denotes the real 16384. -/
theorem ofBits_16384 : Ideal.ofBits .f32 0x46800000#32 = ((16384 : ℝ) : EReal) := by
  simp [Ideal.ofBits, Ideal.ieee, -EReal.coe_mul]; norm_num

/-- The word of `6.10351563e-5` denotes the real 1/16384. -/
theorem ofBits_inv_16384 : Ideal.ofBits .f32 0x38800000#32 = ((1 / 16384 : ℝ) : EReal) := by
  simp [Ideal.ofBits, Ideal.ieee, -EReal.coe_mul]; norm_num

end Cert.Consts

end
-- ==== Proof.LibPlanes.lean ====
/-
  A four-axis array `[A, B, C, D]` and its planes, at any extents. The plane `(a, b)` is the `C · D` entries
  `x(a, b, ·, ·)`; entry `k` of it, in row-major order, is `x(a, b, k / D, k mod D)`. Read that way:
  the host's sum over the last two axes at `(a, b)` is the initial value plus the sum of the plane's entries;
  the array reshaped to `[A · B, C · D]` has the plane `(a, b)` as its row `a · B + b`; a column `[A · B, 1]`
  reshaped to `[A, B]` reads its row `a · B + b` at `(a, b)`, and an `[A, B]` array reshaped to that column reads
  back; and an `[A, B]` array broadcast to `[A, B, 1, 1]` and then to `[A, B, C, D]` is constant on every plane.
-/
import Idealize.ShloMosaic.Lib.Pipeline.Value
import Idealize.ShloMosaic.Lib.ValueIdx
import Idealize.ShloMosaic.PureOps.Ideal.Laws

open scoped BigOperators

noncomputable section

namespace Cert.Lib.Planes

open Idealize.ShloMosaic Idealize.ShloMosaic.ValueIdx

variable {α : Type} {A B C D : ℕ}

theorem pos_of_lt_mul {k : ℕ} (h : k < C * D) : 0 < D := by
  rcases D with _ | d
  · simp at h
  · exact Nat.succ_pos d

theorem div_lt_of_lt_mul {k : ℕ} (h : k < C * D) : k / D < C :=
  Nat.div_lt_of_lt_mul (by rw [Nat.mul_comm]; exact h)

theorem row_lt (a : Fin A) (b : Fin B) : a.val * B + b.val < A * B :=
  calc a.val * B + b.val < a.val * B + B := Nat.add_lt_add_left b.isLt _
    _ = (a.val + 1) * B := by rw [Nat.add_mul, Nat.one_mul]
    _ ≤ A * B := Nat.mul_le_mul_right B a.isLt

/-- Entry `k` of the plane `(a, b)`: the index `(a, b, k / D, k mod D)`. -/
def planeIdx (a : Fin A) (b : Fin B) (k : Fin (C * D)) : (⟨4, ![A, B, C, D]⟩ : Shape).Idx :=
  ix4 a b (⟨k.val / D, div_lt_of_lt_mul k.isLt⟩ : Fin C) (⟨k.val % D, Nat.mod_lt _ (pos_of_lt_mul k.isLt)⟩ : Fin D)

/-- The row of the plane `(a, b)` in the array reshaped to `[A · B, C · D]`. -/
def planeRow (a : Fin A) (b : Fin B) : Fin (A * B) := ⟨a.val * B + b.val, row_lt a b⟩

/-- Position `h · D + w` of a plane, for `h < C` and `w < D`. -/
def planePos (h : Fin C) (w : Fin D) : Fin (C * D) := ⟨h.val * D + w.val, row_lt h w⟩

theorem planeIdx_planePos (a : Fin A) (b : Fin B) (h : Fin C) (w : Fin D) :
    planeIdx a b (planePos h w) = ix4 a b h w := by
  have hD : 0 < D := Nat.lt_of_le_of_lt (Nat.zero_le _) w.isLt
  funext ax
  apply Fin.ext
  match ax with
  | ⟨0, _⟩ => rfl
  | ⟨1, _⟩ => rfl
  | ⟨2, _⟩ =>
    show (h.val * D + w.val) / D = h.val
    rw [Nat.add_comm, Nat.add_mul_div_right _ _ hD, Nat.div_eq_of_lt w.isLt, Nat.zero_add]
  | ⟨3, _⟩ =>
    show (h.val * D + w.val) % D = w.val
    rw [Nat.add_comm, Nat.add_mul_mod_self_right, Nat.mod_eq_of_lt w.isLt]

/-- The array reshaped to `[A · B, C · D]`: entry `k` of row `a · B + b` is entry `k` of the plane `(a, b)`. -/
theorem shapeCast_rows_apply (x : (⟨4, ![A, B, C, D]⟩ : Shape).Idx → α)
    (h : (⟨4, ![A, B, C, D]⟩ : Shape).ShapeCasts ⟨2, ![A * B, C * D]⟩) (a : Fin A) (b : Fin B) (k : Fin (C * D)) :
    shapeCast ⟨2, ![A * B, C * D]⟩ x h (ix2 (planeRow a b) k) = x (planeIdx a b k) :=
  shapeCast_apply x h _ _ (by
    rw [Shape.rowMajor_val_four, Shape.rowMajor_val_two]
    show ((a.val * B + b.val) * C + k.val / D) * D + k.val % D = (a.val * B + b.val) * (C * D) + k.val
    have e : k.val / D * D + k.val % D = k.val := Nat.div_add_mod' _ _
    calc ((a.val * B + b.val) * C + k.val / D) * D + k.val % D
        = (a.val * B + b.val) * (C * D) + (k.val / D * D + k.val % D) := by ring
      _ = (a.val * B + b.val) * (C * D) + k.val := by rw [e])

/-- The `[A · B, C · D]` array reshaped back to `[A, B, C, D]` reads, at `(a, b, h, w)`, position `h · D + w` of row
    `a · B + b`. -/
theorem shapeCast_planes_apply (X : (⟨2, ![A * B, C * D]⟩ : Shape).Idx → α)
    (h' : (⟨2, ![A * B, C * D]⟩ : Shape).ShapeCasts ⟨4, ![A, B, C, D]⟩) (a : Fin A) (b : Fin B) (h : Fin C) (w : Fin D) :
    shapeCast ⟨4, ![A, B, C, D]⟩ X h' (ix4 a b h w) = X (ix2 (planeRow a b) (planePos h w)) :=
  shapeCast_apply X h' _ _ (by
    rw [Shape.rowMajor_val_two, Shape.rowMajor_val_four]
    show (a.val * B + b.val) * (C * D) + (h.val * D + w.val) = ((a.val * B + b.val) * C + h.val) * D + w.val
    ring)

/-- A column `[A · B, 1]` reshaped to `[A, B]` reads, at `(a, b)`, its row `a · B + b`. -/
theorem shapeCast_column_grid_apply (v : (⟨2, ![A * B, 1]⟩ : Shape).Idx → α)
    (h : (⟨2, ![A * B, 1]⟩ : Shape).ShapeCasts ⟨2, ![A, B]⟩) (a : Fin A) (b : Fin B) :
    shapeCast ⟨2, ![A, B]⟩ v h (ix2 a b) = v (ix2 (planeRow a b) (0 : Fin 1)) :=
  shapeCast_apply v h _ _ (by
    rw [Shape.rowMajor_val_two, Shape.rowMajor_val_two]
    show (a.val * B + b.val) * 1 + 0 = a.val * B + b.val
    rw [Nat.mul_one, Nat.add_zero])

/-- An `[A, B]` array reshaped to the column `[A · B, 1]` reads, at row `a · B + b`, its entry `(a, b)`. -/
theorem shapeCast_grid_column_apply (y : (⟨2, ![A, B]⟩ : Shape).Idx → α)
    (h : (⟨2, ![A, B]⟩ : Shape).ShapeCasts ⟨2, ![A * B, 1]⟩) (a : Fin A) (b : Fin B) (u : Fin 1) :
    shapeCast ⟨2, ![A * B, 1]⟩ y h (ix2 (planeRow a b) u) = y (ix2 a b) :=
  shapeCast_apply y h _ _ (by
    have hu : u.val = 0 := by omega
    rw [Shape.rowMajor_val_two, Shape.rowMajor_val_two]
    show a.val * B + b.val = (a.val * B + b.val) * 1 + u.val
    rw [hu, Nat.mul_one, Nat.add_zero])

/-- An `[A, B]` array broadcast to `[A, B, 1, 1]` and then to `[A, B, C, D]` reads, at `(a, b, h, w)`, its entry `(a, b)`. -/
theorem broadcast_planes_apply (y : (⟨2, ![A, B]⟩ : Shape).Idx → α)
    (hb1 : (⟨2, ![A, B]⟩ : Shape).BroadcastsInDim ⟨4, ![A, B, 1, 1]⟩ ![0, 1])
    (hb2 : (⟨4, ![A, B, 1, 1]⟩ : Shape).BroadcastsInDim ⟨4, ![A, B, C, D]⟩ ![0, 1, 2, 3])
    (a : Fin A) (b : Fin B) (h : Fin C) (w : Fin D) :
    broadcastInDim ⟨4, ![A, B, C, D]⟩ ![0, 1, 2, 3] hb2 (broadcastInDim ⟨4, ![A, B, 1, 1]⟩ ![0, 1] hb1 y) (ix4 a b h w)
      = y (ix2 a b) := by
  refine (broadcastInDim_apply _ hb2 _ (ix4 a b h w) (ix4 a b (0 : Fin 1) (0 : Fin 1)) ?_).trans ?_
  · intro ax
    match ax with
    | ⟨0, _⟩ =>
      show a.val = if A = 1 then 0 else a.val
      split
      · have := a.isLt; omega
      · rfl
    | ⟨1, _⟩ =>
      show b.val = if B = 1 then 0 else b.val
      split
      · have := b.isLt; omega
      · rfl
    | ⟨2, _⟩ => rfl
    | ⟨3, _⟩ => rfl
  · refine broadcastInDim_apply _ hb1 y (ix4 a b (0 : Fin 1) (0 : Fin 1)) (ix2 a b) ?_
    intro ax
    match ax with
    | ⟨0, _⟩ =>
      show a.val = if A = 1 then 0 else a.val
      split
      · have := a.isLt; omega
      · rfl
    | ⟨1, _⟩ =>
      show b.val = if B = 1 then 0 else b.val
      split
      · have := b.isLt; omega
      · rfl

/-- Dropping the last two axes of an index of a four-axis shape keeps its first two coordinates. -/
theorem drop_last_two (h' : (⟨4, ![A, B, C, D]⟩ : Shape).ReducesTo [(2 : Fin 4), 3] ⟨2, ![A, B]⟩)
    (i : (⟨4, ![A, B, C, D]⟩ : Shape).Idx) : (h'.drop i 0).val = (i 0).val ∧ (h'.drop i 1).val = (i 1).val :=
  ⟨rfl, rfl⟩

/-- Over the extended reals, the host's sum of an `[A, B, C, D]` array over its last two axes is, at `(a, b)`, the
    initial value plus the sum of the `C · D` entries of the plane `(a, b)`. -/
theorem hostReduceAdd_planes_apply (x : (⟨4, ![A, B, C, D]⟩ : Shape).Idx → EReal) (init : EReal)
    (h' : (⟨4, ![A, B, C, D]⟩ : Shape).ReducesTo [(2 : Fin 4), 3] ⟨2, ![A, B]⟩) (a : Fin A) (b : Fin B) :
    Ideal.hostReduceAdd h' x init (ix2 a b) = init + ∑ k : Fin (C * D), x (planeIdx a b k) := by
  unfold Ideal.hostReduceAdd
  refine congrArg (init + ·) ?_
  have hdrop : ∀ i : (⟨4, ![A, B, C, D]⟩ : Shape).Idx, h'.drop i = ix2 a b ↔ (i 0).val = a.val ∧ (i 1).val = b.val := by
    intro i
    constructor
    · intro e
      have e0 : (h'.drop i 0).val = a.val := congrArg (fun j : (⟨2, ![A, B]⟩ : Shape).Idx => (j 0).val) e
      have e1 : (h'.drop i 1).val = b.val := congrArg (fun j : (⟨2, ![A, B]⟩ : Shape).Idx => (j 1).val) e
      exact ⟨(drop_last_two h' i).1.symm.trans e0, (drop_last_two h' i).2.symm.trans e1⟩
    · rintro ⟨e0, e1⟩
      funext ax
      apply Fin.ext
      match ax with
      | ⟨0, _⟩ => exact (drop_last_two h' i).1.trans e0
      | ⟨1, _⟩ => exact (drop_last_two h' i).2.trans e1
  have hback : ∀ i ∈ Finset.univ.filter (fun i : (⟨4, ![A, B, C, D]⟩ : Shape).Idx => h'.drop i = ix2 a b),
      planeIdx a b (planePos (⟨(i 2).val, (i 2).isLt⟩ : Fin C) (⟨(i 3).val, (i 3).isLt⟩ : Fin D)) = i := by
    intro i hi
    obtain ⟨e0, e1⟩ := (hdrop i).mp (Finset.mem_filter.mp hi).2
    rw [planeIdx_planePos]
    funext ax
    apply Fin.ext
    match ax with
    | ⟨0, _⟩ => show a.val = (i 0).val; exact e0.symm
    | ⟨1, _⟩ => show b.val = (i 1).val; exact e1.symm
    | ⟨2, _⟩ => rfl
    | ⟨3, _⟩ => rfl
  refine Finset.sum_nbij' (fun i => planePos (⟨(i 2).val, (i 2).isLt⟩ : Fin C) (⟨(i 3).val, (i 3).isLt⟩ : Fin D))
    (fun k => planeIdx a b k) (fun _ _ => Finset.mem_univ _) ?_ hback ?_ ?_
  · intro k _
    exact Finset.mem_filter.mpr ⟨Finset.mem_univ _, (hdrop _).mpr ⟨rfl, rfl⟩⟩
  · intro k _
    apply Fin.ext
    show k.val / D * D + k.val % D = k.val
    exact Nat.div_add_mod' _ _
  · intro i hi
    exact congrArg x (hback i hi).symm

end Cert.Lib.Planes

end
-- ==== Proof.Laws.lean ====
/-
  The two facts that join the kernel's arrangement of the computation to the reference's.

  The pool. The reference sums x over its last two axes and divides by 16384; the kernel reads x as 4096 rows
  of 16384 entries, sums each row and multiplies by 1/16384. Row 512·b + c of the reshaped array holds the
  plane (b, c, ·, ·) of x in order, entry k being x(b, c, k / 128, k mod 128), so both sums range over the same
  16384 entries; and on the extended reals dividing by a non-zero real is multiplying by its reciprocal, at the
  infinities too. So the two pooled [8, 512] arrays are equal, for every x.

  The residual. The kernel adds, in row 512·b + c of the reshaped x, the column's entry of that row to every
  entry, and reshapes back; the reference adds y(b, c), broadcast over the last two axes, to x(b, c, h, w).
  Entry by entry these are the same sum.

  The index facts are the general ones about the planes of a four-axis array, at the extents 8, 512, 128, 128.
-/
import proofs.«126823_j68032281969033_2_alg».proof.Proof.PoolRegion
import proofs.«126823_j68032281969033_2_alg».proof.Proof.AddRegion
import proofs.«126823_j68032281969033_2_alg».proof.Proof.Consts
import proofs.«126823_j68032281969033_2_alg».proof.Proof.LibPlanes
import Idealize.ShloMosaic.Lib.Pipeline.Value
import Idealize.ShloMosaic.Lib.ValueIdx
import Idealize.ShloMosaic.PureOps.Ideal.Laws

set_option maxRecDepth 16384

open scoped BigOperators

noncomputable section

namespace Cert.Bridge

open Idealize.ShloMosaic Idealize.ShloMosaic.ValueIdx
open Cert.KernelIdeal (S8x512x128x128 S4096x16384 S4096x1 S8x512 S_)
open Cert.KernelIdeal.Pool (rowMeans scale)
open Cert.KernelIdeal.Residual (rowAdd)

/-- Entry k of the plane (b, c): the index (b, c, k / 128, k mod 128). -/
abbrev planeIdx (b : Fin 8) (c : Fin 512) (k : Fin 16384) : S8x512x128x128.Idx :=
  Cert.Lib.Planes.planeIdx (A := 8) (B := 512) (C := 128) (D := 128) b c k

/-- The row of the plane (b, c) in the reshaped array. -/
abbrev planeRow (b : Fin 8) (c : Fin 512) : Fin 4096 := Cert.Lib.Planes.planeRow (A := 8) (B := 512) b c

/-- x reshaped to rows: entry k of row 512·b + c is entry k of the plane (b, c). -/
theorem rows_apply (x : S8x512x128x128.Idx → EReal) (h : S8x512x128x128.ShapeCasts S4096x16384) (b : Fin 8) (c : Fin 512) (k : Fin 16384) :
    shapeCast S4096x16384 x h (ix2 (planeRow b c) k) = x (planeIdx b c k) :=
  Cert.Lib.Planes.shapeCast_rows_apply (A := 8) (B := 512) (C := 128) (D := 128) x h b c k

/-- The kernel's pooled array at (b, c): the plane's sum times the scale. -/
theorem kernel_pool_apply (x : S8x512x128x128.Idx → EReal) (hA : S8x512x128x128.ShapeCasts S4096x16384)
    (hB : S4096x1.ShapeCasts S8x512) (b : Fin 8) (c : Fin 512) :
    shapeCast S8x512 (rowMeans (shapeCast S4096x16384 x hA)) hB (ix2 b c) = (∑ k : Fin 16384, x (planeIdx b c k)) * scale := by
  refine (Cert.Lib.Planes.shapeCast_column_grid_apply (A := 8) (B := 512) (rowMeans (shapeCast S4096x16384 x hA)) hB b c).trans ?_
  unfold rowMeans
  refine congrArg₂ (· * ·) (Finset.sum_congr rfl fun k _ => ?_) rfl
  exact rows_apply x hA b c k

/-- The host's sum over the last two axes at (b, c): the initial value plus the plane's sum. -/
theorem host_plane_sum (x : S8x512x128x128.Idx → EReal) (init : EReal) (h' : S8x512x128x128.ReducesTo [2, 3] S8x512)
    (b : Fin 8) (c : Fin 512) :
    Ideal.hostReduceAdd h' x init (ix2 b c) = init + ∑ k : Fin 16384, x (planeIdx b c k) :=
  Cert.Lib.Planes.hostReduceAdd_planes_apply (A := 8) (B := 512) (C := 128) (D := 128) x init h' b c

/-- The reference's pooled array at (b, c): the plane's sum (from zero) divided by 16384. -/
theorem reference_pool_apply (x : S8x512x128x128.Idx → EReal) (h' : S8x512x128x128.ReducesTo [2, 3] S8x512) (hS : 0 < S_.numel)
    (hb : S_.BroadcastsInDim S8x512 ![]) (b : Fin 8) (c : Fin 512) :
    Host.divf (Host.reduceAdd x (constant (F := Ideal) S_ .f32 0x00000000#32) h' hS)
        (broadcastInDim S8x512 ![] hb (constant (F := Ideal) S_ .f32 0x46800000#32)) (ix2 b c)
      = Ideal.div (0 + ∑ k : Fin 16384, x (planeIdx b c k)) ((16384 : ℝ) : EReal) := by
  have hden : broadcastInDim S8x512 ![] hb (constant (F := Ideal) S_ .f32 0x46800000#32) (ix2 b c) = ((16384 : ℝ) : EReal) :=
    (broadcastInDim_apply _ hb _ (ix2 b c) ix0 (fun a => a.elim0)).trans Cert.Consts.ofBits_16384
  show Ideal.div (Ideal.hostReduceAdd h' x (Ideal.ofBits .f32 0x00000000#32) (ix2 b c))
      (broadcastInDim S8x512 ![] hb (constant (F := Ideal) S_ .f32 0x46800000#32) (ix2 b c)) = _
  rw [hden, host_plane_sum, Ideal.ofBits_zero_f32]

/-- THE POOL: the kernel's pooled array is the reference's. -/
theorem pool_eq (x : S8x512x128x128.Idx → EReal) (hA : S8x512x128x128.ShapeCasts S4096x16384) (hB : S4096x1.ShapeCasts S8x512)
    (h' : S8x512x128x128.ReducesTo [2, 3] S8x512) (hS : 0 < S_.numel) (hb : S_.BroadcastsInDim S8x512 ![]) :
    shapeCast S8x512 (rowMeans (shapeCast S4096x16384 x hA)) hB
      = Host.divf (Host.reduceAdd x (constant (F := Ideal) S_ .f32 0x00000000#32) h' hS)
          (broadcastInDim S8x512 ![] hb (constant (F := Ideal) S_ .f32 0x46800000#32)) := by
  funext j
  obtain ⟨b, c, rfl⟩ : ∃ (b : Fin 8) (c : Fin 512), j = ix2 b c := ⟨j 0, j 1, eq_ix2 j⟩
  rw [kernel_pool_apply, reference_pool_apply, Ideal.div_coe (by norm_num : (16384 : ℝ) ≠ 0), zero_add]
  show _ * Ideal.ofBits .f32 0x38800000#32 = _
  rw [Cert.Consts.ofBits_inv_16384]

/-- THE RESIDUAL: adding the column row by row to the reshaped x and reshaping back is adding y, broadcast over the
    last two axes, to x. -/
theorem residual_eq (x : S8x512x128x128.Idx → EReal) (y : S8x512.Idx → EReal)
    (hA : S8x512x128x128.ShapeCasts S4096x16384) (hC : S8x512.ShapeCasts S4096x1) (hD : S4096x16384.ShapeCasts S8x512x128x128)
    (hb1 : S8x512.BroadcastsInDim ⟨4, ![8, 512, 1, 1]⟩ ![0, 1])
    (hb2 : (⟨4, ![8, 512, 1, 1]⟩ : Shape).BroadcastsInDim S8x512x128x128 ![0, 1, 2, 3]) :
    shapeCast S8x512x128x128 (rowAdd (shapeCast S4096x16384 x hA) (shapeCast S4096x1 y hC)) hD
      = addf (F := Ideal) (φ := .f32) x (broadcastInDim S8x512x128x128 ![0, 1, 2, 3] hb2 (broadcastInDim ⟨4, ![8, 512, 1, 1]⟩ ![0, 1] hb1 y)) := by
  funext i
  obtain ⟨b, c, h, w, rfl⟩ : ∃ (b : Fin 8) (c : Fin 512) (h : Fin 128) (w : Fin 128), i = ix4 b c h w :=
    ⟨i 0, i 1, i 2, i 3, eq_ix4 i⟩
  refine (Cert.Lib.Planes.shapeCast_planes_apply (A := 8) (B := 512) (C := 128) (D := 128) _ hD b c h w).trans ?_
  unfold rowAdd
  refine (congrArg₂ (· + ·) ?_ ?_).trans (addf_apply _ _ _).symm
  · refine (Cert.Lib.Planes.shapeCast_rows_apply (A := 8) (B := 512) (C := 128) (D := 128) x hA b c _).trans ?_
    rw [Cert.Lib.Planes.planeIdx_planePos]
  · refine (Cert.Lib.Planes.shapeCast_grid_column_apply (A := 8) (B := 512) y hC b c (0 : Fin 1)).trans ?_
    exact (Cert.Lib.Planes.broadcast_planes_apply (A := 8) (B := 512) (C := 128) (D := 128) y hb1 hb2 b c h w).symm

end Cert.Bridge

end
-- ==== Proof.Bridge.lean ====
/-
  The kernel's value is the reference's.

  With x reshaped to rows, the kernel pools by row sums times 1/16384 where the reference sums the last two axes
  and divides by 16384 (the pool law); both then apply the same [8, 512] algebra to the pooled array; and the
  kernel adds the resulting column row by row and reshapes back where the reference broadcasts over the last
  two axes and adds (the residual law).
-/
import proofs.«126823_j68032281969033_2_alg».proof.Proof.Fold
import proofs.«126823_j68032281969033_2_alg».proof.Proof.Laws
import proofs.«126823_j68032281969033_2_alg».proof.Proof.Gen.ReferenceIdeal.Run

set_option maxRecDepth 16384

noncomputable section

namespace Cert.Bridge

open Idealize.ShloMosaic
open Cert.ReferenceIdeal Cert.ReferenceIdeal.Gen

/-- The kernel's result, as a function of the seven arguments, is the term the reference's run ends at. -/
theorem value_eq_reference (x : FVec Ideal S8x512x128x128 .f32) (w1 : FVec Ideal S128x512 .f32) (w2 : FVec Ideal S512x128 .f32)
    (a3 a4 a5 a6 : FVec Ideal S512 .f32) :
    Cert.KernelIdeal.Fold.value x w1 w2 a3 a4 a5 a6
      = (addf x (broadcastInDim S8x512x128x128 ![0, 1, 2, 3] bcast_S8x512x1x1_S8x512x128x128_0_1_2_3 (broadcastInDim S8x512x1x1 ![0, 1] bcast_S8x512_S8x512x1x1_0_1 (minimumf (broadcastInDim S8x512 ![] bcast_S_S8x512 (id (constant S_ .f32 0x40C00000#32))) (maximumf (broadcastInDim S8x512 ![] bcast_S_S8x512 (id (constant S_ .f32 0x00000000#32))) (addf (mulf (mulf (subf (Host.dotGeneral dot_S8x128_S512x128_S8x512_1_1_0_0_n_n none (minimumf (broadcastInDim S8x128 ![] bcast_S_S8x128 (id (constant S_ .f32 0x40C00000#32))) (maximumf (broadcastInDim S8x128 ![] bcast_S_S8x128 (id (constant S_ .f32 0x00000000#32))) (Host.dotGeneral dot_S8x512_S128x512_S8x128_1_1_0_0_n_n none (Host.divf (Host.reduceAdd x (constant S_ .f32 0x00000000#32) reducesTo_S8x512x128x128_S8x512_d2_3 h_S_) (broadcastInDim S8x512 ![] bcast_S_S8x512 (constant S_ .f32 0x46800000#32))) w1))) w2) (broadcastInDim S8x512 ![0, 1] bcast_S1x512_S8x512_0_1 (broadcastInDim S1x512 ![1] bcast_S512_S1x512_1 a5))) (broadcastInDim S8x512 ![0, 1] bcast_S1x512_S8x512_0_1 (broadcastInDim S1x512 ![1] bcast_S512_S1x512_1 (Host.rsqrt (addf a6 (broadcastInDim S512 ![] bcast_S_S512 (constant S_ .f32 0x3727C5AC#32))))))) (broadcastInDim S8x512 ![0, 1] bcast_S1x512_S8x512_0_1 (broadcastInDim S1x512 ![1] bcast_S512_S1x512_1 a3))) (broadcastInDim S8x512 ![0, 1] bcast_S1x512_S8x512_0_1 (broadcastInDim S1x512 ![1] bcast_S512_S1x512_1 a4))))))) : FVec Ideal S8x512x128x128 .f32) := by
  unfold Cert.KernelIdeal.Fold.value
  rw [residual_eq x _ _ _ _ bcast_S8x512_S8x512x1x1_0_1 bcast_S8x512x1x1_S8x512x128x128_0_1_2_3,
    pool_eq x _ _ reducesTo_S8x512x128x128_S8x512_d2_3 h_S_ bcast_S_S8x512]
  rfl

end Cert.Bridge

end
-- ==== Proof.lean ====
/-
  The certificate of the global-context-fuse kernel against its reference.

  The kernel pools x over its last two axes in one pipelined region (x read as 4096 rows of 16384 entries, each
  row's sum times 1/16384), applies the [8, 512] algebra on the host, and adds the result back in a second
  region (the column added row by row); the reference sums over the two axes and divides by 16384, applies the
  same algebra, broadcasts and adds. The three frames are the generated ones (the reference's is its generated
  run with the result dropped); the idealization rewrote nothing; and at the extended reals both programs end
  at one function of the arguments: the kernel's run read at its result buffer, the fold of its segments in
  closed form, and the two laws that join the arrangements (the pool and the residual).
-/
import proofs.«126823_j68032281969033_2_alg».proof.Defs
import proofs.«126823_j68032281969033_2_alg».proof.Proof.Gen.Kernel
import proofs.«126823_j68032281969033_2_alg».proof.Proof.Gen.Kernel.Skeleton
import proofs.«126823_j68032281969033_2_alg».proof.Proof.Gen.Kernel.Launch
import proofs.«126823_j68032281969033_2_alg».proof.Proof.Gen.Kernel.Points
import proofs.«126823_j68032281969033_2_alg».proof.Proof.Gen.Kernel.Frame
import proofs.«126823_j68032281969033_2_alg».proof.Proof.Gen.KernelIdeal
import proofs.«126823_j68032281969033_2_alg».proof.Proof.Gen.KernelIdeal.Skeleton
import proofs.«126823_j68032281969033_2_alg».proof.Proof.Gen.KernelIdeal.Launch
import proofs.«126823_j68032281969033_2_alg».proof.Proof.Gen.KernelIdeal.Points
import proofs.«126823_j68032281969033_2_alg».proof.Proof.Gen.KernelIdeal.Frame
import proofs.«126823_j68032281969033_2_alg».proof.Proof.Gen.ReferenceIdeal
import proofs.«126823_j68032281969033_2_alg».proof.Proof.Gen.Pre_finite_inputs
import proofs.«126823_j68032281969033_2_alg».proof.Proof.Gen.ReferenceIdeal.Run
import proofs.«126823_j68032281969033_2_alg».proof.Proof.KernelRun
import proofs.«126823_j68032281969033_2_alg».proof.Proof.Fold
import proofs.«126823_j68032281969033_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the kernel's `value` of the arguments. -/
theorem algebraic : Cert.algebraic_KernelIdeal_ReferenceIdeal := by
  intro m ρ m' ρ' _ hagree
  refine ⟨fun c => Cert.KernelIdeal.Fold.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result_eq m ρ c), (h c).2⟩)
      (Cert.KernelIdeal.ResultRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [e0, e1, e2, e3, e4, e5, e6]
    exact (Cert.Bridge.value_eq_reference _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
